-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S4096x256 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S256x256 : Shape := ⟨2, ![256, 256]⟩
abbrev S1x256 : Shape := ⟨2, ![1, 256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_

variable [Facts]

def fn {F : FTy → Type} [FloatOps F] (main_arg0 : FVec F S262144x256 .f32) (main_arg1 : FVec F S256x256 .f32) (main_arg2 : FVec F S1x256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S1x256 .f32 := Host.absf main_arg2
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  main_v13
-- ==== Kernel.lean ====
abbrev S262144x256 : Shape := ⟨2, ![262144, 256]⟩
abbrev S256x256 : Shape := ⟨2, ![256, 256]⟩
abbrev S1x256 : Shape := ⟨2, ![1, 256]⟩
abbrev S4096x256 : Shape := ⟨2, ![4096, 256]⟩

abbrev nBuf : Space → Nat
  | .hbm => 7
  | .vmem => 6
  | .smem => 0
  | _ => 0

abbrev bufTy : (tb : Table) → Fin (tcTables nBuf tb) → BufTy
  | .hbm, ⟨0, _⟩ => ⟨S262144x256, .f32⟩
  | .hbm, ⟨1, _⟩ => ⟨S256x256, .f32⟩
  | .hbm, ⟨2, _⟩ => ⟨S1x256, .f32⟩
  | .hbm, ⟨3, _⟩ => ⟨S256x256, .f32⟩
  | .hbm, ⟨4, _⟩ => ⟨S256x256, .f32⟩
  | .hbm, ⟨5, _⟩ => ⟨S256x256, .bf16⟩
  | .hbm, ⟨6, _⟩ => ⟨S262144x256, .f32⟩
  | .local _ .vmem, ⟨0, _⟩ => ⟨S4096x256, .f32⟩
  | .local _ .vmem, ⟨1, _⟩ => ⟨S4096x256, .f32⟩
  | .local _ .vmem, ⟨2, _⟩ => ⟨S256x256, .bf16⟩
  | .local _ .vmem, ⟨3, _⟩ => ⟨S1x256, .f32⟩
  | .local _ .vmem, ⟨4, _⟩ => ⟨S4096x256, .f32⟩
  | .local _ .vmem, ⟨5, _⟩ => ⟨S4096x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S256x256_S256x256_1_0 : S256x256.Transposes [1, 0] S256x256
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  broadcasts_S1x256_S4096x256 : S1x256.Broadcasts S4096x256
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S262144x256.size a
  hwx0_3 : ∀ i : grid0.Coords, EltTy.bits .f32 = 32 ∨ (Rect.block (s := S262144x256) S4096x256.size (cc0_transform_3 i) (hinb0_3 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x256 : Shape := ⟨2, ![262144, 256]⟩
abbrev S256x256 : Shape := ⟨2, ![256, 256]⟩
abbrev S1x256 : Shape := ⟨2, ![1, 256]⟩

abbrev nBuf : Space → Nat
  | .hbm => 8
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S256x256, .f32⟩
  | .hbm, ⟨2, _⟩ => ⟨S1x256, .f32⟩
  | .hbm, ⟨3, _⟩ => ⟨S262144x256, .f32⟩
  | .hbm, ⟨4, _⟩ => ⟨S256x256, .f32⟩
  | .hbm, ⟨5, _⟩ => ⟨S262144x256, .f32⟩
  | .hbm, ⟨6, _⟩ => ⟨S262144x256, .f32⟩
  | .hbm, ⟨7, _⟩ => ⟨S262144x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S1x256_S262144x256_0_1 : S1x256.BroadcastsInDim S262144x256 (![0, 1] : Fin 2 → Fin S262144x256.rank)
  dot_S262144x256_S256x256_S262144x256_1_1_0_0_n_n_wf : DotDims.WF S262144x256 S256x256 S262144x256 [1] [1] [0] [0] [] []

variable [Facts₀]

def dot_S262144x256_S256x256_S262144x256_1_1_0_0_n_n : DotDims S262144x256 S256x256 S262144x256 where
  lhsContracting := [1]
  rhsContracting := [1]
  lhsNonContracting := [0]
  rhsNonContracting := [0]
  lhsBatch := []
  rhsBatch := []
  wf := dot_S262144x256_S256x256_S262144x256_1_1_0_0_n_n_wf

class Facts : Prop extends Facts₀ where

variable [Facts]
-- ==== Proof.Spec.lean ====
import Idealize.ShloMosaic.Lib.ValueIdx
import Idealize.ShloMosaic.PureOps.Ideal.Laws

/-!
# A binarized linear layer, entry by entry

Activations `x : [262144, 256]`, weights `w : [256, 256]` (one row per output channel) and a row of per-channel
scales `s : [1, 256]`. Both operands are replaced by their signs (`-1`, `0` or `1`) before the product, and each output
channel is scaled afterwards:

  `out (n, o) = (∑ k < 256, sign (x (n, k)) · sign (w (o, k))) · s (0, o)`.

Over the extended reals this is one function of the three arrays, with the sum taken first and the scale applied to
the sum: no factor is moved across the sum, so nothing here needs the entries to be finite.
-/

noncomputable section

namespace Cert.BinLinear

open Idealize.ShloMosaic Idealize.ShloMosaic.ValueIdx
open scoped BigOperators

/-- One entry of the layer: row `n` of the activations against row `o` of the weights, signs multiplied and summed
    over the 256 input channels, then scaled by channel `o`'s scale. -/
def entry (x : FVec Ideal ⟨2, ![262144, 256]⟩ .f32) (w : FVec Ideal ⟨2, ![256, 256]⟩ .f32) (s : FVec Ideal ⟨2, ![1, 256]⟩ .f32)
    (n : Fin 262144) (o : Fin 256) : EReal :=
  (∑ k : Fin 256, Ideal.sign (x (ix2 n k)) * Ideal.sign (w (ix2 o k))) * s (ix2 (0 : Fin 1) o)

/-- The whole layer: the entry at each index's row and column. -/
def layer (x : FVec Ideal ⟨2, ![262144, 256]⟩ .f32) (w : FVec Ideal ⟨2, ![256, 256]⟩ .f32) (s : FVec Ideal ⟨2, ![1, 256]⟩ .f32) :
    FVec Ideal ⟨2, ![262144, 256]⟩ .f32 :=
  fun i => entry x w s (i 0) (i 1)

/-- At an index given by its row and column the layer is that entry. -/
theorem layer_ix2 (x : FVec Ideal ⟨2, ![262144, 256]⟩ .f32) (w : FVec Ideal ⟨2, ![256, 256]⟩ .f32) (s : FVec Ideal ⟨2, ![1, 256]⟩ .f32)
    (n : Fin 262144) (o : Fin 256) : layer x w s (ix2 n o) = entry x w s n o := rfl

end Cert.BinLinear

end
-- ==== Proof.RefValue.lean ====
import proofs.«105336_j28200755265772_2_alg».proof.Proof.Gen.ReferenceIdeal.Read
import proofs.«105336_j28200755265772_2_alg».proof.Proof.Spec

/-!
# The reference computes the layer

The reference takes the signs of the activations and of the weights on the host, contracts the second axis of one
against the second axis of the other, broadcasts the row of scales down the rows and multiplies. Read at an index
`i = (n, o)`, stage by stage: the product is the sum over `k` of the left operand at `(n, k)` times the right at
`(o, k)`; each operand there is the sign of the argument's entry; the broadcast reads the scales' one row at column
`o`. That is the layer's entry at `(n, o)`, term for term.
-/

noncomputable section

namespace Cert.ReferenceIdeal.RefValue

open Cert.ReferenceIdeal Cert.ReferenceIdeal.Gen Idealize.ShloMosaic Idealize.ShloMosaic.TcCoe Idealize.ShloMosaic.ValueIdx
open scoped BigOperators

/-- The product's left operand index at `(i, k)`: the result's row, input channel `k`. -/
theorem lidx_eq (i : S262144x256.Idx) (k : Fin 256) : Read.lidx_main_v2 i k = ix2 (i 0) k :=
  funext fun a => Fin.ext (by match a with | ⟨0, _⟩ => rfl | ⟨1, _⟩ => rfl)

/-- Its right operand index: the weights' row is the result's column, input channel `k`. -/
theorem ridx_eq (i : S262144x256.Idx) (k : Fin 256) : Read.ridx_main_v2 i k = ix2 (i 1) k :=
  funext fun a => Fin.ext (by match a with | ⟨0, _⟩ => rfl | ⟨1, _⟩ => rfl)

/-- The broadcast reads the scales' one row at the result's column. -/
theorem sidx_eq (i : S262144x256.Idx) : Read.idx_main_v3 i = ix2 (0 : Fin 1) (i 1) :=
  funext fun a => Fin.ext (by match a with | ⟨0, _⟩ => rfl | ⟨1, _⟩ => rfl)

/-- The reference's result, as a function of its three arguments, is the layer. -/
theorem reference_eq (x0 : FVec Ideal S262144x256 .f32) (x1 : FVec Ideal S256x256 .f32) (x2 : FVec Ideal S1x256 .f32) :
    Read.val_main_v4 (F := Ideal) x0 x1 x2 = Cert.BinLinear.layer x0 x1 x2 := by
  funext i
  rw [Read.val_main_v4_apply, Read.val_main_v2_apply, Read.val_main_v3_apply]
  simp only [Read.val_main_v0_apply, Read.val_main_v1_apply, lidx_eq, ridx_eq, sidx_eq, Ideal.hostUnary_sign_def, Ideal.mulf_def]
  rfl

end Cert.ReferenceIdeal.RefValue

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.Payload.lean ====
import proofs.«105336_j28200755265772_2_alg».proof.Proof.Gen.KernelIdeal.Skeleton
import proofs.«105336_j28200755265772_2_alg».proof.Proof.LibPlainDot
import Idealize.ShloMosaic.Lib.ValueLayout
import Idealize.ShloMosaic.Lib.Pipeline.Value

/-!
# What one grid point computes, entry by entry

At a grid point the body holds a block `v0 : [4096, 256]` of activations, the whole staged matrix `v12 : [256, 256]`
(input channel first) and the row of scales `v15 : [1, 256]`. It replaces each activation by `1` carrying its sign
where its magnitude is above zero and by itself (zero) elsewhere — the sign of the entry, at every extended real —,
multiplies rows by columns into a zero accumulator, and scales column `q` by the scale at `q`. The narrowing to sixteen
bits before the product is the identity on extended reals. So the stored value at `(p, q)` is
`(∑ k < 256, sign (v0 (p, k)) · v12 (k, q)) · v15 (0, q)`.
-/

noncomputable section

namespace Cert.KernelIdeal.Hand

open Cert.KernelIdeal Cert.KernelIdeal.Gen Idealize.ShloMosaic Idealize.ShloMosaic.TcCoe Idealize.ShloMosaic.ValueIdx
open scoped BigOperators

/-- The body's stored value at row `p`, column `q` of the block. -/
theorem payload_apply (v0 : Vec Ideal S4096x256 .f32) (v12 : Vec Ideal S256x256 .bf16) (v15 : Vec Ideal S1x256 .f32)
    (p : Fin 4096) (q : Fin 256) :
    k0_pay1 (F := Ideal) v0 v12 v15 (ix2 p q)
      = (∑ k : Fin 256, Ideal.sign (v0 (ix2 p k)) * v12 (ix2 k q)) * v15 (ix2 (0 : Fin 1) q) := by
  unfold k0_pay1
  rw [mulf_apply, broadcastTo_1b_ab_apply, shapeCast_self]
  refine congrArg (· * v15 (ix2 (0 : Fin 1) q)) ?_
  refine (Cert.LibPlainDot.matmul_zero_apply (φ₁ := .bf16) (φ₂ := .bf16) dot_S4096x256_S256x256_S4096x256_1_0_0_1_n_n
    ⟨rfl, rfl, rfl, rfl, rfl, rfl⟩ none _ v12 p q).trans ?_
  exact Finset.sum_congr rfl fun k _ => congrArg (· * v12 (ix2 k q)) (Ideal.jnp_sign_eq_sign_f32 (v0 (ix2 p k)))

end Cert.KernelIdeal.Hand

end
-- ==== Proof.Weights.lean ====
import proofs.«105336_j28200755265772_2_alg».proof.Proof.Gen.KernelIdeal.Frame
import Idealize.ShloMosaic.Lib.ValueLayout
import Idealize.ShloMosaic.Lib.Pipeline.Value
import Idealize.ShloMosaic.Lib.StableHlo.Run
import Idealize.ShloMosaic.PureOps.Ideal.Laws

/-!
# The staged matrix is the weights' signs, transposed

Before the kernel is launched the host takes the sign of every weight, transposes the matrix and narrows it to sixteen
bits (the identity on extended reals). The array the kernel's second window stages therefore holds, at
`(k, o)`, the sign of the weight at `(o, k)`.
-/

noncomputable section

namespace Cert.KernelIdeal.Hand

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The array the second window stages, as the three host operations leave it. -/
theorem staged_eq (c : Dev nD) :
    (V m c main_v2 : S256x256.Idx → EReal)
      = truncf .bf16 (transpose S256x256 [1, 0] (Host.sign (F := Ideal) (m ((c : Thread nD τ).loc main_arg1))) transposes_S256x256_S256x256_1_0) bitsLt_bf16_f32 := by
  dsimp only [V, hostOps0]
  after_results

/-- Read at `(k, o)`: the sign of the weight at `(o, k)`. -/
theorem staged_apply (c : Dev nD) (k o : Fin 256) :
    (V m c main_v2 : S256x256.Idx → EReal) (ix2 k o)
      = Ideal.sign ((m ((c : Thread nD τ).loc main_arg1) : S256x256.Idx → EReal) (ix2 o k)) := by
  rw [staged_eq, truncf_apply, transpose_ix2_apply, Ideal.host_sign_eq_sign]

end Cert.KernelIdeal.Hand

end
-- ==== Proof.Blocks.lean ====
import proofs.«105336_j28200755265772_2_alg».proof.Proof.Gen.KernelIdeal.Value
import proofs.«105336_j28200755265772_2_alg».proof.Proof.Spec
import proofs.«105336_j28200755265772_2_alg».proof.Proof.Payload
import proofs.«105336_j28200755265772_2_alg».proof.Proof.Weights

/-!
# From the 64 row blocks to the whole array

The grid has 64 points. Point `t` stages rows `4096 t … 4096 t + 4095` of the activations, the whole staged sign matrix
and the whole row of scales, and writes back rows `4096 t … 4096 t + 4095` of the result. Row `p` of the block is row
`4096 t + p` of the array, so what the point writes at `(p, q)` is the layer's entry at `(4096 t + p, q)`: point `t` writes
block `t` of the layer. Every row `r` lies in block `r / 4096`, so the blocks cover the array, and after the run the result
array holds the layer of the three arguments as launched.
-/

noncomputable section

namespace Cert.KernelIdeal.Hand

open Cert.KernelIdeal Cert.KernelIdeal.Gen Idealize.ShloMosaic Idealize.ShloMosaic.TcCoe Idealize.ShloMosaic.ValueIdx
open Idealize.SL.Sem
open Idealize.ShloMosaic.Pipeline (Dat)
open scoped BigOperators

variable (m : (ℓ : Loc nD τ sig) → Buf (Elt Ideal) ℓ) (ρ : Dev nD → PrngReg)

theorem origin : (![0, 0] : Fin 2 → Nat) = fun _ => 0 := funext fun a => by fin_cases a <;> rfl

/-- The layer of the three arguments as launched: what the result array is to hold. -/
abbrev result (c : Dev nD) : Buf (Elt Ideal) ((c : Thread nD τ).loc main_v3) :=
  Cert.BinLinear.layer (m ((c : Thread nD τ).loc main_arg0)) (m ((c : Thread nD τ).loc main_arg1)) (m ((c : Thread nD τ).loc main_arg2))

/-- The printed index maps over the 64 points: the activations' and the result's blocks move down the rows with the
    point; the staged matrix and the scales stay at block `(0, 0)`. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 64 := lt_of_lt_of_eq t.isLt N_0

/-- Row `p` of point `t`'s block, as a row of the array. -/
def row (t : Fin cfg0.N) (p : Fin 4096) : Fin 262144 :=
  ⟨t.val * 4096 + p.val, by have := point_lt t; have := p.isLt; omega⟩

/-- The activations' block at point `t`, at `(p, k)`: the argument at `(4096 t + p, k)`. -/
theorem x_read (c : Dev nD) (t : Fin cfg0.N) (p : Fin 4096) (k : Fin 256) :
    (iblk m c 0 t : Vec Ideal S4096x256 .f32) (ix2 p k)
      = (m ((c : Thread nD τ).loc main_arg0) : S262144x256.Idx → EReal) (ix2 (row t p) k) := by
  obtain ⟨e0, e1, -⟩ := block_index t
  refine Eq.trans ?_ (congrFun (V_main_arg0 m c) (ix2 (row t p) k))
  show V m c main_arg0 (((cfg0.win 0).blk t).view.emb (ix2 p k)) = V m c main_arg0 (ix2 (row t p) k)
  refine congrArg (V m c main_arg0) (funext fun a => Fin.ext ?_)
  match a with
  | ⟨0, _⟩ => show win0_0.index t (0 : Fin 2) * 4096 + 1 * p.val = t.val * 4096 + p.val; rw [e0]; omega
  | ⟨1, _⟩ => show win0_0.index t (1 : Fin 2) * 256 + 1 * k.val = k.val; rw [e1]; omega

/-- The staged matrix's block at any point, at `(k, q)`: the sign of the weight at `(q, k)`. -/
theorem w_read (c : Dev nD) (t : Fin cfg0.N) (k q : Fin 256) :
    (iblk m c 1 t : Vec Ideal S256x256 .bf16) (ix2 k q)
      = Ideal.sign ((m ((c : Thread nD τ).loc main_arg1) : S256x256.Idx → EReal) (ix2 q k)) := by
  obtain ⟨-, -, e0, e1, -⟩ := block_index t
  refine Eq.trans ?_ (staged_apply m c k q)
  show V m c main_v2 (((cfg0.win 1).blk t).view.emb (ix2 k q)) = V m c main_v2 (ix2 k q)
  refine congrArg (V m c main_v2) (funext fun a => Fin.ext ?_)
  match a with
  | ⟨0, _⟩ => show win0_1.index t (0 : Fin 2) * 256 + 1 * k.val = k.val; rw [e0]; omega
  | ⟨1, _⟩ => show win0_1.index t (1 : Fin 2) * 256 + 1 * q.val = q.val; rw [e1]; omega

/-- The scales' block at any point, at `(0, q)`: the argument there. -/
theorem s_read (c : Dev nD) (t : Fin cfg0.N) (q : Fin 256) :
    (iblk m c 2 t : Vec Ideal S1x256 .f32) (ix2 (0 : Fin 1) q)
      = (m ((c : Thread nD τ).loc main_arg2) : S1x256.Idx → EReal) (ix2 (0 : Fin 1) q) := by
  obtain ⟨-, -, -, -, e0, e1, -⟩ := block_index t
  refine Eq.trans ?_ (congrFun (V_main_arg2 m c) (ix2 (0 : Fin 1) q))
  show V m c main_arg2 (((cfg0.win 2).blk t).view.emb (ix2 (0 : Fin 1) q)) = V m c main_arg2 (ix2 (0 : Fin 1) q)
  refine congrArg (V m c main_arg2) (funext fun a => Fin.ext ?_)
  match a with
  | ⟨0, _⟩ => show win0_2.index t (0 : Fin 2) * 1 + 1 * (0 : Fin 1).val = (0 : Fin 1).val; rw [e0]; rfl
  | ⟨1, _⟩ => show win0_2.index t (1 : Fin 2) * 256 + 1 * q.val = q.val; rw [e1]; omega

/-- The result's block at point `t` puts `(p, q)` at `(4096 t + p, q)` of the array. -/
theorem out_emb (t : Fin cfg0.N) (p : Fin 4096) (q : Fin 256) :
    ((cfg0.win 3).blk t).view.emb (ix2 p q) = (ix2 (row t p) q : S262144x256.Idx) := by
  obtain ⟨-, -, -, -, -, -, e0, e1⟩ := block_index t
  refine funext fun a => Fin.ext ?_
  match a with
  | ⟨0, _⟩ => show win0_3.index t (0 : Fin 2) * 4096 + 1 * p.val = t.val * 4096 + p.val; rw [e0]; omega
  | ⟨1, _⟩ => show win0_3.index t (1 : Fin 2) * 256 + 1 * q.val = q.val; rw [e1]; omega

/-- WHAT POINT `t` WRITES BACK is block `t` of the layer. -/
theorem flushed_eq (c : Dev nD) (t : Fin cfg0.N) :
    (dats m 0 c).flushed 3 t = ((cfg0.win 3).blk t).view.read (Elt Ideal) (result m c) := by
  rw [Cert.KernelIdeal.Value.flushed3]
  unfold out0_3
  rw [View.canon_unit_zero origin]
  simp only [View.ld_unit_zero (S := S4096x256) origin, View.ld_unit_zero (S := S256x256) origin, View.ld_unit_zero (S := S1x256) origin]
  funext j
  obtain ⟨p, q, rfl⟩ : ∃ (p : Fin 4096) (q : Fin 256), j = ix2 p q := ⟨j 0, j 1, eq_ix2 j⟩
  show k0_pay1 (F := Ideal) (iblk m c 0 t) (iblk m c 1 t) (iblk m c 2 t) (ix2 p q)
    = result m c (((cfg0.win 3).blk t).view.emb (ix2 p q))
  refine (payload_apply (iblk m c 0 t) (iblk m c 1 t) (iblk m c 2 t) p q).trans ?_
  refine (congrArg₂ (· * ·)
    (Finset.sum_congr rfl fun k _ => congrArg₂ (· * ·) (congrArg Ideal.sign (x_read m c t p k)) (w_read m c t k q))
    (s_read m c t q)).trans ?_
  rw [out_emb t p q]
  rfl

/-- An index of the array is in point `t`'s block iff each coordinate is in the block's range on its axis. -/
theorem mem_block (t : Fin cfg0.N) (i : S262144x256.Idx) :
    i ∈ ((cfg0.win 3).blk t).view.set ↔ ∀ a : Fin 2, win0_3.index t a * S4096x256.size a ≤ (i a).val ∧ (i a).val < win0_3.index t a * S4096x256.size a + S4096x256.size a := by
  show i ∈ ((View.whole main_v3).slice (win0_3.rect t)).set ↔ _
  rw [View.set_slice_whole, Rect.mem_set_unit]
  exact Iff.rfl

/-- Every index of the result array is in some point's block: row `r` in block `r / 4096`. -/
theorem covered (i : S262144x256.Idx) :
    ∃ t : Fin cfg0.N, (cfg0.win 3).flush t = true ∧ i ∈ ((cfg0.win 3).blk t).view.set := by
  have hi0 : (i 0).val < 262144 := (i 0).isLt
  have hi1 : (i 1).val < 256 := (i 1).isLt
  obtain ⟨t, ht⟩ : ∃ t : Fin cfg0.N, t.val = (i 0).val / 4096 :=
    ⟨⟨(i 0).val / 4096, lt_of_lt_of_eq (by omega : (i 0).val / 4096 < 64) N_0.symm⟩, rfl⟩
  obtain ⟨-, -, -, -, -, -, e0, e1⟩ := block_index t
  refine ⟨t, flush0_3 t, ?_⟩
  rw [mem_block]
  intro a
  match a with
  | ⟨0, _⟩ => show win0_3.index t (0 : Fin 2) * 4096 ≤ (i 0).val ∧ (i 0).val < win0_3.index t (0 : Fin 2) * 4096 + 4096; rw [e0, ht]; omega
  | ⟨1, _⟩ => show win0_3.index t (1 : Fin 2) * 256 ≤ (i 1).val ∧ (i 1).val < win0_3.index t (1 : Fin 2) * 256 + 256; rw [e1]; omega

/-- THE RESULT ARRAY after the run is the layer of the arguments as launched. -/
theorem final (c : Dev nD) : (dats m 0 c).arrAt 3 cfg0.N = result m c :=
  (dats m 0 c).arrAt_eq_of_cover 3 (result m c) (fun t _ => flushed_eq m c t) covered

/-- The kernel's run, read: the result array at the layer, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Hand

end
-- ==== Proof.lean ====
/-
  A binarized linear layer, tiled over rows, against its plain form.

  Both programs compute, for activations `x : [262144, 256]`, weights `w : [256, 256]` and a row of scales
  `s : [1, 256]`,

      out (n, o) = (∑ k < 256, sign (x (n, k)) · sign (w (o, k))) · s (0, o).

  The reference does it on the host: the sign of each operand, one contraction of the operands' second axes, the
  scales broadcast down the rows, a product. The kernel first takes the weights' signs on the host, transposes them and
  narrows them to sixteen bits, then sweeps 64 blocks of 4096 rows: in each it forms the activations' signs as `1`
  carrying the entry's sign bit where the entry's magnitude is above zero and the entry itself elsewhere, narrows them to
  sixteen bits, multiplies rows by columns of the staged matrix into a zero accumulator and scales each column.

  Over the extended reals a change of float format is the identity, the sign-bit form is the sign of the entry at every
  extended real (the infinities included, zero sent to zero), and a product into a zero accumulator is the plain sum.
  So the kernel's entry at row `p` of block `t` is the layer's entry at row `4096 t + p`; the 64 blocks tile the array; and the
  two programs end with the same array, term for term. The sum is taken before the scale on both sides, so no law that
  would need finite entries is used.

  The idealized kernel differs from the printed one at one place: where the printed kernel reads an activation's sign
  bit through its word, the idealized one compares the activation with zero. That is the one conjunct of `preserves`.
-/
import proofs.«105336_j28200755265772_2_alg».proof.Defs
import proofs.«105336_j28200755265772_2_alg».proof.Proof.Gen.Kernel
import proofs.«105336_j28200755265772_2_alg».proof.Proof.Gen.Kernel.Frame
import proofs.«105336_j28200755265772_2_alg».proof.Proof.Gen.KernelIdeal
import proofs.«105336_j28200755265772_2_alg».proof.Proof.Gen.KernelIdeal.Frame
import proofs.«105336_j28200755265772_2_alg».proof.Proof.Gen.KernelIdeal.Value
import proofs.«105336_j28200755265772_2_alg».proof.Proof.Gen.ReferenceIdeal
import proofs.«105336_j28200755265772_2_alg».proof.Proof.Gen.ReferenceIdeal.Run
import proofs.«105336_j28200755265772_2_alg».proof.Proof.Gen.ReferenceIdeal.Read
import proofs.«105336_j28200755265772_2_alg».proof.Proof.Gen.Pre_finite_inputs
import proofs.«105336_j28200755265772_2_alg».proof.Proof.RefValue
import proofs.«105336_j28200755265772_2_alg».proof.Proof.Blocks

noncomputable section

namespace Cert.Proof

open Idealize.ShloMosaic Idealize.ShloMosaic.TcCoe Idealize.SL.Sem

/-- The printed kernel runs, faults nowhere and leaves its arguments as they were. -/
theorem frame_kernel : Cert.frame_Kernel := fun m ρ _ => Cert.Kernel.Gen.frame m ρ

/-- So does the idealized kernel. -/
theorem frame_ideal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Reading a float's sign bit through its word, and comparing the float with zero, select the same of `-1` and `1`. -/
theorem preserves : Cert.preserves_Kernel_KernelIdeal :=
  IdealRules.sign_bit.statement Cert.KernelIdeal.S4096x256 .f32

/-- From memories that agree on the three arguments the idealized kernel ends with the layer of its arguments in its
    result array, and the idealized reference with the layer of its own: one array. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v4_eq _ _ _).trans (Cert.ReferenceIdeal.RefValue.reference_eq _ _ _)).trans ?_
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
